-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x32 : Shape := ⟨2, ![4096, 32]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x4096 32) (main_arg2 : IVec S4096x32 32) (main_arg3 : IVec S4096x32 32) (main_arg4 : FVec F S4096 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096 .f32 := Host.absf main_arg4
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg5
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096x32 : Shape := ⟨2, ![4096, 32]⟩
abbrev S4096 : Shape := ⟨1, ![4096]⟩
abbrev S4096x1 : Shape := ⟨2, ![4096, 1]⟩
abbrev S4096x32x128 : Shape := ⟨3, ![4096, 32, 128]⟩
abbrev S4096x32x1 : Shape := ⟨3, ![4096, 32, 1]⟩
abbrev S_ : Shape := ⟨0, ![]⟩
abbrev S4x2048 : Shape := ⟨2, ![4, 2048]⟩
abbrev S4x2048x1 : Shape := ⟨3, ![4, 2048, 1]⟩
abbrev S8192x4096 : Shape := ⟨2, ![8192, 4096]⟩
abbrev S8192x1 : Shape := ⟨2, ![8192, 1]⟩
abbrev S1024x1024 : Shape := ⟨2, ![1024, 1024]⟩
abbrev S1024x1 : Shape := ⟨2, ![1024, 1]⟩

abbrev nBuf : Space → Nat
  | .hbm => 50
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x32, .i32⟩
  | .hbm, ⟨3, _⟩ => ⟨S4096x32, .i32⟩
  | .hbm, ⟨4, _⟩ => ⟨S4096, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S4096x32, .f32⟩
  | .hbm, ⟨9, _⟩ => ⟨S4096x32, .f32⟩
  | .hbm, ⟨10, _⟩ => ⟨S4096x32, .f32⟩
  | .hbm, ⟨11, _⟩ => ⟨S4096x32, .f32⟩
  | .hbm, ⟨12, _⟩ => ⟨S4096x32, .f32⟩
  | .hbm, ⟨13, _⟩ => ⟨S4096x32x128, .i32⟩
  | .hbm, ⟨14, _⟩ => ⟨S4096x32x128, .f32⟩
  | .hbm, ⟨15, _⟩ => ⟨S4096x32, .f32⟩
  | .hbm, ⟨16, _⟩ => ⟨S4096x32x1, .f32⟩
  | .hbm, ⟨17, _⟩ => ⟨S4096x32x128, .f32⟩
  | .hbm, ⟨18, _⟩ => ⟨S4096x32x128, .f32⟩
  | .hbm, ⟨19, _⟩ => ⟨S4096x32x1, .f32⟩
  | .hbm, ⟨20, _⟩ => ⟨S4096x32x128, .f32⟩
  | .hbm, ⟨21, _⟩ => ⟨S4096x32x128, .f32⟩
  | .hbm, ⟨22, _⟩ => ⟨S4096x4096, .f32⟩
  | .hbm, ⟨23, _⟩ => ⟨S4x2048x4096, .f32⟩
  | .hbm, ⟨24, _⟩ => ⟨S_, .f32⟩
  | .hbm, ⟨25, _⟩ => ⟨S4x2048, .f32⟩
  | .hbm, ⟨26, _⟩ => ⟨S4x2048x1, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S4x2048x4096, .f32⟩
  | .hbm, ⟨34, _⟩ => ⟨S4x2048x4096, .f32⟩
  | .hbm, ⟨35, _⟩ => ⟨S4x2048x4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4x2048x4096, .f32⟩
  | .hbm, ⟨40, _⟩ => ⟨S4x2048x4096, .f32⟩
  | .hbm, ⟨41, _⟩ => ⟨S_, .f32⟩
  | .hbm, ⟨42, _⟩ => ⟨S4x2048x4096, .f32⟩
  | .hbm, ⟨43, _⟩ => ⟨S4x2048x4096, .f32⟩
  | .hbm, ⟨44, _⟩ => ⟨S8192x4096, .f32⟩
  | .hbm, ⟨45, _⟩ => ⟨S8192x4096, .bf16⟩
  | .hbm, ⟨46, _⟩ => ⟨S4096x4096, .bf16⟩
  | .hbm, ⟨47, _⟩ => ⟨S8192x1, .f32⟩
  | .hbm, ⟨48, _⟩ => ⟨S8192x4096, .f32⟩
  | .hbm, ⟨49, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1, .f32⟩
  | .local _ .vmem, ⟨5, _⟩ => ⟨S1024x1, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S4096_S4096x1_0 : S4096.BroadcastsInDim S4096x1 (![0] : Fin 1 → Fin S4096x1.rank)
  bcast_S4096x1_S4096x32_0_1 : S4096x1.BroadcastsInDim S4096x32 (![0, 1] : Fin 2 → Fin S4096x32.rank)
  shapeCasts_S4096x4096_S4096x32x128 : S4096x4096.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  reducesTo_S4x2048x4096_S4x2048_d2 : S4x2048x4096.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S_S4x2048x4096 : S_.BroadcastsInDim S4x2048x4096 (![] : Fin 0 → Fin S4x2048x4096.rank)
  shapeCasts_S4x2048x4096_S8192x4096 : S4x2048x4096.ShapeCasts S8192x4096
  bitsLt_bf16_f32 : FTy.bits .bf16 < FTy.bits .f32
  shapeCasts_S4x2048x1_S8192x1 : S4x2048x1.ShapeCasts S8192x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  shapeCasts_S8192x4096_S4x2048x4096 : S8192x4096.ShapeCasts S4x2048x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v29) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x32 : Shape := ⟨2, ![4096, 32]⟩
abbrev S4096 : Shape := ⟨1, ![4096]⟩
abbrev S4096x1 : Shape := ⟨2, ![4096, 1]⟩
abbrev S4096x32x128 : Shape := ⟨3, ![4096, 32, 128]⟩
abbrev S4096x32x1 : Shape := ⟨3, ![4096, 32, 1]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x32, .i32⟩
  | .hbm, ⟨3, _⟩ => ⟨S4096x32, .i32⟩
  | .hbm, ⟨4, _⟩ => ⟨S4096, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S4096x32, .f32⟩
  | .hbm, ⟨9, _⟩ => ⟨S4096x32, .f32⟩
  | .hbm, ⟨10, _⟩ => ⟨S4096x32, .f32⟩
  | .hbm, ⟨11, _⟩ => ⟨S4096x32, .f32⟩
  | .hbm, ⟨12, _⟩ => ⟨S4096x32, .f32⟩
  | .hbm, ⟨13, _⟩ => ⟨S4096x32x128, .i32⟩
  | .hbm, ⟨14, _⟩ => ⟨S4096x32x128, .f32⟩
  | .hbm, ⟨15, _⟩ => ⟨S4096x32, .f32⟩
  | .hbm, ⟨16, _⟩ => ⟨S4096x32x1, .f32⟩
  | .hbm, ⟨17, _⟩ => ⟨S4096x32x128, .f32⟩
  | .hbm, ⟨18, _⟩ => ⟨S4096x32x128, .f32⟩
  | .hbm, ⟨19, _⟩ => ⟨S4096x32x1, .f32⟩
  | .hbm, ⟨20, _⟩ => ⟨S4096x32x128, .f32⟩
  | .hbm, ⟨21, _⟩ => ⟨S4096x32x128, .f32⟩
  | .hbm, ⟨22, _⟩ => ⟨S4096x4096, .f32⟩
  | .hbm, ⟨23, _⟩ => ⟨S4x2048x4096, .f32⟩
  | .hbm, ⟨24, _⟩ => ⟨S_, .f32⟩
  | .hbm, ⟨25, _⟩ => ⟨S4x2048, .f32⟩
  | .hbm, ⟨26, _⟩ => ⟨S4x2048x1, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S4x2048x4096, .f32⟩
  | .hbm, ⟨34, _⟩ => ⟨S4x2048x4096, .f32⟩
  | .hbm, ⟨35, _⟩ => ⟨S4x2048x4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4x2048x4096, .f32⟩
  | .hbm, ⟨40, _⟩ => ⟨S4x2048x4096, .f32⟩
  | .hbm, ⟨41, _⟩ => ⟨S_, .f32⟩
  | .hbm, ⟨42, _⟩ => ⟨S4x2048x4096, .f32⟩
  | .hbm, ⟨43, _⟩ => ⟨S4x2048x4096, .f32⟩
  | .hbm, ⟨44, _⟩ => ⟨S4x2048x4096, .f32⟩
  | .hbm, ⟨45, _⟩ => ⟨S4x2048x4096, .f32⟩
  | .hbm, ⟨46, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x32_0_1 : S4096x1.BroadcastsInDim S4096x32 (![0, 1] : Fin 2 → Fin S4096x32.rank)
  shapeCasts_S4096x4096_S4096x32x128 : S4096x4096.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  reducesTo_S4x2048x4096_S4x2048_d2 : S4x2048x4096.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one run of the kernel body leaves behind, case by case, as the body's own arithmetic.

  The body keeps a 1024 × 1024 accumulator between grid points. Along the contraction axis of the grid:
    * at the first step it stores zero into the accumulator, reads that back, and stores zero-plus-product over it;
    * at every later step it stores accumulator-plus-product;
    * at the last step it also stores, into the output block, the fresh accumulator times the row scales.
  Each buffer ends up covered by its last store, whose payload's loads read whole buffers; so what a buffer holds is
  that payload applied to the buffers' contents. Stated for any float instance.
-/
import proofs.«130098_j35416300323327_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every store of the body starts at the block's origin. -/
theorem hz : (![0, 0] : Fin 2 → Nat) = fun _ => 0 := funext fun a => by fin_cases a <;> rfl

/-- First step of a contraction run: the accumulator ends at the step applied to the reset value. -/
theorem acc_first (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i)
    (x0 x1 : Vec F S1024x1024 .bf16) (x2 : Vec F S1024x1 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A middle step: the accumulator ends at the step applied to what it held. -/
theorem acc_middle (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i)
    (x0 x1 : Vec F S1024x1024 .bf16) (x2 : Vec F S1024x1 .f32) (xs0 : Vec F S1024x1024 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero hz]
  simp only [View.readAt_eq_ld, h3.read_unread, h4.read_unread, h7.read_unread, View.ld_unit_zero (S := S1024x1024) hz]

/-- The last step, accumulator: the same step as a middle one. -/
theorem acc_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 x1 : Vec F S1024x1024 .bf16) (x2 : Vec F S1024x1 .f32) (xs0 : Vec F S1024x1024 .f32) :
    sout0_C_0 c i a3 h3 a4 h4 a5 h5 a6 h6 a7 h7 hc0 hc1 x0 x1 x2 xs0 = k0_pay2 xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S1024x1024) hz]

/-- The last step, output block: the fresh accumulator through the epilogue with the scale block. -/
theorem out_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 x1 : Vec F S1024x1024 .bf16) (x2 : Vec F S1024x1 .f32) (xs0 : Vec F S1024x1024 .f32) :
    out0_C_3 c i a3 h3 a4 h4 a5 h5 a6 h6 a7 h7 hc0 hc1 x0 x1 x2 xs0 = k0_pay3 (k0_pay2 xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz, View.readCov_unit_zero (S := S1024x1024) _ hz]
  simp only [View.readAt_eq_ld, h3.read_unread, h4.read_unread, h5.read_unread, h7.read_unread,
    View.ld_unit_zero (S := S1024x1024) hz, View.ld_unit_zero (S := S1024x1) hz]

end Cert.KernelIdeal.Pieces

end
-- ==== Proof.Payload.lean ====
/-
  The kernel body's arithmetic at the exact values, one entry at a time.

  The body works on 1024 × 1024 blocks. At entry (p, q):
    * the reset value is 0;
    * the accumulation step adds to the old accumulator the dot product of row p of the activation block with row q
      of the weight block (both blocks are laid out [row, feature], so the product contracts their second axes);
    * the epilogue multiplies the accumulator by row p's scale, which sits in a one-column block.
  Changes of float format are the identity on exact values and the shape casts are between equal shapes, so nothing
  else is left of the three payloads.
-/
import proofs.«130098_j35416300323327_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.ValueIdx Cert.KernelIdeal Cert.KernelIdeal.Gen

/-- The block product's dimension record: both operands contract their axis 1, rows come from each operand's axis 0. -/
abbrev D := dot_S1024x1024_S1024x1024_S1024x1024_1_1_0_0_n_n

theorem lhs0 (j : S1024x1024.Idx) (k : D.contr.Idx) : (D.lhsIdx j k 0).val = (j 0).val := by
  unfold DotDims.lhsIdx
  rw [dif_neg (show ¬(0 : Fin S1024x1024.rank) ∈ D.lhsBatch by decide), dif_pos (show (0 : Fin S1024x1024.rank) ∈ D.lhsNonContracting by decide)]
  rfl

theorem lhs1 (j : S1024x1024.Idx) (k : D.contr.Idx) : (D.lhsIdx j k 1).val = (k ⟨0, by decide⟩).val :=
  D.lhsIdx_val_of_single rfl j k

theorem rhs0 (j : S1024x1024.Idx) (k : D.contr.Idx) : (D.rhsIdx j k 0).val = (j 1).val := by
  unfold DotDims.rhsIdx
  rw [dif_neg (show ¬(0 : Fin S1024x1024.rank) ∈ D.rhsBatch by decide), dif_pos (show (0 : Fin S1024x1024.rank) ∈ D.rhsNonContracting by decide)]
  rfl

theorem rhs1 (j : S1024x1024.Idx) (k : D.contr.Idx) : (D.rhsIdx j k 1).val = (k ⟨0, by decide⟩).val :=
  D.rhsIdx_val_of_single rfl j k

/-- The block product into a zero accumulator, at entry (p, q): row p of `a` against row q of `b`. -/
theorem blockDot_apply (a b : FVec Ideal S1024x1024 .bf16) (p q : Fin 1024) :
    FloatOps.matmul D none a b (constant S1024x1024 .f32 0x00000000#32) (ix2 p q) = ∑ l : Fin 1024, a (ix2 p l) * b (ix2 q l) := by
  rw [Ideal.matmul_constant_zero_apply, ← Equiv.sum_comp (contrEquiv1 D 1024 rfl rfl).symm]
  refine Finset.sum_congr rfl fun l _ => ?_
  have hl := contrEquiv1_symm_val D 1024 rfl rfl l
  have el : D.lhsIdx (ix2 p q) ((contrEquiv1 D 1024 rfl rfl).symm l) = ix2 p l := funext fun x => Fin.ext (by
    match x with
    | ⟨0, _⟩ => exact lhs0 _ _
    | ⟨1, _⟩ => exact (lhs1 _ _).trans hl)
  have er : D.rhsIdx (ix2 p q) ((contrEquiv1 D 1024 rfl rfl).symm l) = ix2 q l := funext fun x => Fin.ext (by
    match x with
    | ⟨0, _⟩ => exact rhs0 _ _
    | ⟨1, _⟩ => exact (rhs1 _ _).trans hl)
  rw [el, er]

/-- The reset stores zero everywhere. -/
theorem reset_apply (j : S1024x1024.Idx) : k0_pay1 (F := Ideal) j = 0 := by
  unfold k0_pay1
  simp only [shapeCast_self]
  exact Ideal.ofBits_zero_f32

/-- The accumulation step at entry (p, q): the old entry plus the two rows' dot product. -/
theorem step_apply (acc : Vec Ideal S1024x1024 .f32) (x0 x1 : Vec Ideal S1024x1024 .bf16) (p q : Fin 1024) :
    k0_pay2 (F := Ideal) acc x0 x1 (ix2 p q) = acc (ix2 p q) + ∑ l : Fin 1024, x0 (ix2 p l) * x1 (ix2 q l) := by
  unfold k0_pay2
  simp only [shapeCast_self]
  exact congrArg (acc (ix2 p q) + ·) (blockDot_apply x0 x1 p q)

/-- The epilogue at entry (p, q): the accumulator's entry times row p's scale. -/
theorem scale_apply (acc : Vec Ideal S1024x1024 .f32) (x2 : Vec Ideal S1024x1 .f32) (p q : Fin 1024) :
    k0_pay3 (F := Ideal) acc x2 (ix2 p q) = acc (ix2 p q) * x2 (ix2 p (0 : Fin 1)) := by
  unfold k0_pay3
  simp only [shapeCast_self]
  refine congrArg (acc (ix2 p q) * ·) ?_
  exact broadcastTo_apply x2 broadcasts_S1024x1_S1024x1024 (ix2 p q) (ix2 p (0 : Fin 1)) (fun x => match x with
    | ⟨0, _⟩ => by show p.val = if (1024 : Nat) = 1 then 0 else p.val; rw [if_neg (by decide)]
    | ⟨1, _⟩ => by show (0 : Fin 1).val = if (1 : Nat) = 1 then 0 else q.val; rw [if_pos rfl]; rfl)

end Cert.KernelIdeal.Payload

end
-- ==== Proof.Spec.lean ====
/-
  A token-quantised linear layer, stated once as a function of three arrays.

  Given quantised activations `Q[b, s, i]`, dequantised weights `W[o, i]` and one scale per token
  `sc[b, s, 0]`, the layer's output is
      out[b, s, o] = (∑ i, Q[b, s, i] * W[o, i]) * sc[b, s, 0].
  Two arrangements of this formula meet in the proof: the three-axis one above, and the same thing over the
  flattened token axis `r = 2048 * b + s` (a matrix of 8192 rows). The contraction may also be taken a block of the
  `i` axis at a time and the blocks' partial sums added up: over a commutative monoid that is the same sum
  (`sum_blocks`), and the extended reals under `+` are one, so no finiteness is involved.
-/
import Idealize.ShloMosaic.PureOps.Ideal
import Idealize.ShloMosaic.Lib.ValueIdx

noncomputable section

namespace Cert.QuantLinear

open Idealize.ShloMosaic Idealize.ShloMosaic.ValueIdx

/-- A matrix read at natural-number coordinates: its entry inside its extents, zero outside. A sum over a
    `Finset.range` can then mention the entry at `1024 * s + l` without carrying a bound. -/
def at2 {n0 n1 : Nat} (A : (⟨2, ![n0, n1]⟩ : Shape).Idx → EReal) (r k : Nat) : EReal :=
  if h : r < n0 ∧ k < n1 then A (ix2 ⟨r, h.1⟩ ⟨k, h.2⟩) else 0

/-- Inside the extents it is the entry. -/
theorem at2_eq {n0 n1 : Nat} (A : (⟨2, ![n0, n1]⟩ : Shape).Idx → EReal) (r k : Nat) (hr : r < n0) (hk : k < n1) :
    at2 A r k = A (ix2 ⟨r, hr⟩ ⟨k, hk⟩) := by
  unfold at2; rw [dif_pos ⟨hr, hk⟩]

/-- A sum over `K * J` consecutive naturals is the sum of the `J` sums over its consecutive stretches of `K`:
    stretch `s` holds `K * s, …, K * s + K - 1`. By induction on the number of stretches, peeling the last. -/
theorem sum_blocks {β : Type*} [AddCommMonoid β] (f : Nat → β) (K : Nat) :
    ∀ J : Nat, ∑ s ∈ Finset.range J, ∑ l ∈ Finset.range K, f (K * s + l) = ∑ k ∈ Finset.range (K * J), f k
  | 0 => by simp
  | J + 1 => by rw [Finset.sum_range_succ, sum_blocks f K J, Nat.mul_succ, Finset.sum_range_add]

/-- The layer over the flattened token axis: row `r` of `X` against row `o` of `W`, times row `r`'s scale. -/
def rowsDot (X : (⟨2, ![8192, 4096]⟩ : Shape).Idx → EReal) (W : (⟨2, ![4096, 4096]⟩ : Shape).Idx → EReal)
    (sc : (⟨2, ![8192, 1]⟩ : Shape).Idx → EReal) : (⟨2, ![8192, 4096]⟩ : Shape).Idx → EReal :=
  fun i => (∑ k ∈ Finset.range 4096, at2 X (i 0).val k * at2 W (i 1).val k)
    * sc (ix2 (⟨(i 0).val, (i 0).isLt⟩ : Fin 8192) (0 : Fin 1))

/-- The layer over (batch, token, feature): the formula of the header. -/
def layer (Q : (⟨3, ![4, 2048, 4096]⟩ : Shape).Idx → EReal) (W : (⟨2, ![4096, 4096]⟩ : Shape).Idx → EReal)
    (sc : (⟨3, ![4, 2048, 1]⟩ : Shape).Idx → EReal) : (⟨3, ![4, 2048, 4096]⟩ : Shape).Idx → EReal :=
  fun i => (∑ k : Fin 4096, Q (ix3 (⟨(i 0).val, (i 0).isLt⟩ : Fin 4) (⟨(i 1).val, (i 1).isLt⟩ : Fin 2048) k)
      * W (ix2 (⟨(i 2).val, (i 2).isLt⟩ : Fin 4096) k))
    * sc (ix3 (⟨(i 0).val, (i 0).isLt⟩ : Fin 4) (⟨(i 1).val, (i 1).isLt⟩ : Fin 2048) (0 : Fin 1))

/-- The flattened layer at row `2048 * b + s` is the three-axis layer at `(b, s)`, when the flattened operands
    are the three-axis ones re-indexed that way: the `Finset.range` sum is the sum over `Fin 4096`, term by term. -/
theorem rowsDot_eq_layer (X : (⟨2, ![8192, 4096]⟩ : Shape).Idx → EReal) (W : (⟨2, ![4096, 4096]⟩ : Shape).Idx → EReal)
    (xs : (⟨2, ![8192, 1]⟩ : Shape).Idx → EReal)
    (Q : (⟨3, ![4, 2048, 4096]⟩ : Shape).Idx → EReal) (sc : (⟨3, ![4, 2048, 1]⟩ : Shape).Idx → EReal)
    (b : Fin 4) (s : Fin 2048) (o : Fin 4096) (r : Fin 8192) (hr : r.val = 2048 * b.val + s.val)
    (hX : ∀ k : Fin 4096, X (ix2 r k) = Q (ix3 b s k))
    (hs : xs (ix2 r (0 : Fin 1)) = sc (ix3 b s (0 : Fin 1))) :
    rowsDot X W xs (ix2 r o) = layer Q W sc (ix3 b s o) := by
  unfold rowsDot layer
  rw [Finset.sum_range]
  refine congrArg₂ (· * ·) (Finset.sum_congr rfl fun k _ => ?_) hs
  rw [at2_eq X _ _ r.isLt k.isLt, at2_eq W _ _ o.isLt k.isLt]
  exact congrArg₂ (· * ·) (hX k) rfl

end Cert.QuantLinear

end
-- ==== Proof.Blocks.lean ====
/-
  The three input blocks of a grid point, read at an entry.

  The grid has 8 × 4 × 4 = 128 points; point `t` is (t / 16, (t / 4) % 4, t % 4) = (row tile, column tile, step along
  the contraction). With 1024-wide tiles:
    * the activation block at `t` is rows 1024 (t/16) …, features 1024 (t%4) … of the flattened activations;
    * the weight block at `t` is rows 1024 ((t/4)%4) …, features 1024 (t%4) … of the weights;
    * the scale block at `t` is rows 1024 (t/16) … of the one-column scale array.
  A block's entry (p, l) is the array's entry at (tile index × 1024 + p, tile index × 1024 + l).
-/
import proofs.«130098_j35416300323327_1_alg».proof.Proof.Gen.KernelIdeal.Frame
import proofs.«130098_j35416300323327_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen Cert.QuantLinear

variable (m : (ℓ : Loc nD τ sig) → Buf (Elt Ideal) ℓ)

/-- The flattened activations, the weights and the token scales as the region finds them. -/
abbrev actArr (c : Dev nD) : (⟨2, ![8192, 4096]⟩ : Shape).Idx → EReal := V m c main_v29
abbrev wgtArr (c : Dev nD) : (⟨2, ![4096, 4096]⟩ : Shape).Idx → EReal := V m c main_v30
abbrev sclArr (c : Dev nD) : (⟨2, ![8192, 1]⟩ : Shape).Idx → EReal := V m c main_v31

/-- Where each window's block sits, as tile indices, at every point of the grid. -/
theorem idx_act : ∀ t : Fin cfg0.N, win0_0.index t (0 : Fin 2) = t.val / 16 ∧ win0_0.index t (1 : Fin 2) = t.val % 4 :=
  (by decide +kernel : ∀ t : Fin grid0.N, win0_0.index t (0 : Fin 2) = t.val / 16 ∧ win0_0.index t (1 : Fin 2) = t.val % 4)
theorem idx_wgt : ∀ t : Fin cfg0.N, win0_1.index t (0 : Fin 2) = (t.val / 4) % 4 ∧ win0_1.index t (1 : Fin 2) = t.val % 4 :=
  (by decide +kernel : ∀ t : Fin grid0.N, win0_1.index t (0 : Fin 2) = (t.val / 4) % 4 ∧ win0_1.index t (1 : Fin 2) = t.val % 4)
theorem idx_scl : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)
theorem idx_out : ∀ t : Fin cfg0.N, win0_3.index t (0 : Fin 2) = t.val / 16 ∧ win0_3.index t (1 : Fin 2) = (t.val / 4) % 4 :=
  (by decide +kernel : ∀ t : Fin grid0.N, win0_3.index t (0 : Fin 2) = t.val / 16 ∧ win0_3.index t (1 : Fin 2) = (t.val / 4) % 4)

theorem lt128 (t : Fin cfg0.N) : t.val < 128 := lt_of_lt_of_eq t.isLt (show cfg0.N = 128 from N_0)

/-- The activation block's entry (p, l). -/
theorem act_apply (c : Dev nD) (t : Fin cfg0.N) (p l : Fin 1024) :
    (iblk m c 0 t : Vec Ideal S1024x1024 .bf16) (ix2 p l)
      = at2 (actArr m c) (1024 * (t.val / 16) + p.val) (1024 * (t.val % 4) + l.val) := by
  have hN := lt128 t
  have hi := idx_act t
  rw [at2_eq (actArr m c) _ _ (by omega) (by omega)]
  unfold iblk
  rw [View.read_apply]
  show V m c main_v29 _ = V m c main_v29 _
  refine congrArg (V m c main_v29) (funext fun a => Fin.ext ?_)
  match a with
  | ⟨0, _⟩ => show win0_0.index t 0 * 1024 + 1 * p.val = 1024 * (t.val / 16) + p.val; rw [hi.1]; omega
  | ⟨1, _⟩ => show win0_0.index t 1 * 1024 + 1 * l.val = 1024 * (t.val % 4) + l.val; rw [hi.2]; omega

/-- The weight block's entry (q, l). -/
theorem wgt_apply (c : Dev nD) (t : Fin cfg0.N) (q l : Fin 1024) :
    (iblk m c 1 t : Vec Ideal S1024x1024 .bf16) (ix2 q l)
      = at2 (wgtArr m c) (1024 * ((t.val / 4) % 4) + q.val) (1024 * (t.val % 4) + l.val) := by
  have hN := lt128 t
  have hi := idx_wgt t
  rw [at2_eq (wgtArr m c) _ _ (by omega) (by omega)]
  unfold iblk
  rw [View.read_apply]
  show V m c main_v30 _ = V m c main_v30 _
  refine congrArg (V m c main_v30) (funext fun a => Fin.ext ?_)
  match a with
  | ⟨0, _⟩ => show win0_1.index t 0 * 1024 + 1 * q.val = 1024 * ((t.val / 4) % 4) + q.val; rw [hi.1]; omega
  | ⟨1, _⟩ => show win0_1.index t 1 * 1024 + 1 * l.val = 1024 * (t.val % 4) + l.val; rw [hi.2]; omega

/-- The scale block's entry (p, 0). -/
theorem scl_apply (c : Dev nD) (t : Fin cfg0.N) (p : Fin 1024) :
    (iblk m c 2 t : Vec Ideal S1024x1 .f32) (ix2 p (0 : Fin 1))
      = sclArr m c (ix2 (⟨1024 * (t.val / 16) + p.val, by have := lt128 t; omega⟩ : Fin 8192) (0 : Fin 1)) := by
  have hN := lt128 t
  have hi := idx_scl t
  unfold iblk
  rw [View.read_apply]
  show V m c main_v31 _ = V m c main_v31 _
  refine congrArg (V m c main_v31) (funext fun a => Fin.ext ?_)
  match a with
  | ⟨0, _⟩ => show win0_2.index t 0 * 1024 + 1 * p.val = 1024 * (t.val / 16) + p.val; rw [hi.1]; omega
  | ⟨1, _⟩ => show win0_2.index t 1 * 1 + 1 * (0 : Fin 1).val = (0 : Fin 1).val; rw [hi.2]; rfl

end Cert.KernelIdeal.Blocks

end
-- ==== Proof.Accum.lean ====
/-
  The accumulator over a contraction run, and the block the run's last step writes.

  Grid points come in runs of four consecutive points `4 g, …, 4 g + 3` sharing a row tile and a column tile and
  stepping through the four slices of the contraction axis. Within a run the accumulator is reset at the first point
  and each point adds its own slice's contribution (`term`): so after point `t` it holds the sum of the contributions
  of the run's points up to `t` — a fold, closed once by induction on the position in the run and never by listing
  the grid. At the run's last point the four slices' sums make up the whole contraction (`sum_blocks`), and the
  output block is that times the rows' scales: an entry of the flattened layer.
-/
import proofs.«130098_j35416300323327_1_alg».proof.Proof.Pieces
import proofs.«130098_j35416300323327_1_alg».proof.Proof.Payload
import proofs.«130098_j35416300323327_1_alg».proof.Proof.Blocks
import Idealize.ShloMosaic.Lib.Pipeline.Value

set_option maxRecDepth 16384

noncomputable section

open Idealize.ShloMosaic Idealize.ShloMosaic.TcCoe Idealize.SL.Sem Idealize.ShloMosaic.ValueIdx

namespace Cert.KernelIdeal.Accum

open Cert.KernelIdeal Cert.KernelIdeal.Gen Cert.QuantLinear Cert.KernelIdeal.Blocks
open Idealize.ShloMosaic.Pipeline (accAt eq_accAt_of_mod accAt_add_apply)

variable (m : (ℓ : Loc nD τ sig) → Buf (Elt Ideal) ℓ)

/-- Point `n`'s contribution to accumulator entry `i`: over the point's slice of the contraction axis, the products
    of the activations' row `i 0` of the point's row tile with the weights' row `i 1` of its column tile. -/
def term (c : Dev nD) (n : Nat) (i : S1024x1024.Idx) : EReal :=
  ∑ l ∈ Finset.range 1024, at2 (actArr m c) (1024 * (n / 16) + (i 0).val) (1024 * (n % 4) + l)
    * at2 (wgtArr m c) (1024 * ((n / 4) % 4) + (i 1).val) (1024 * (n % 4) + l)

/-- The body's step at point `t`, from any accumulator: it adds the point's contribution. -/
theorem step_at (c : Dev nD) (t : Fin cfg0.N) (acc : Vec Ideal S1024x1024 .f32) (i : S1024x1024.Idx) :
    k0_pay2 (F := Ideal) acc (iblk m c 0 t) (iblk m c 1 t) i = acc i + term m c t.val i := by
  obtain ⟨p, q, rfl⟩ : ∃ (p q : Fin 1024), i = ix2 p q := ⟨i 0, i 1, eq_ix2 i⟩
  refine (Payload.step_apply acc (iblk m c 0 t) (iblk m c 1 t) p q).trans ?_
  refine congrArg (acc (ix2 p q) + ·) ?_
  unfold term
  rw [Finset.sum_range]
  refine Finset.sum_congr rfl fun l _ => ?_
  rw [act_apply m c t p l, wgt_apply m c t q l]

/-- The accumulator after point `n`; what a run's first point leaves; what a later point makes of what it finds. -/
def accF (c : Dev nD) : (n : Nat) → n < cfg0.N → Vec Ideal S1024x1024 .f32 := fun n h => (outsAt0 m c n h).2
def firstV (c : Dev nD) : (n : Nat) → n < cfg0.N → Vec Ideal S1024x1024 .f32 :=
  fun n h => k0_pay2 (F := Ideal) (k0_pay1 (F := Ideal)) (iblk m c 0 ⟨n, h⟩) (iblk m c 1 ⟨n, h⟩)
def stepV (c : Dev nD) : (n : Nat) → n < cfg0.N → Vec Ideal S1024x1024 .f32 → Vec Ideal S1024x1024 .f32 :=
  fun n h acc => k0_pay2 (F := Ideal) acc (iblk m c 0 ⟨n, h⟩) (iblk m c 1 ⟨n, h⟩)

/-- At the first point of a run the accumulator is the step applied to the reset value. -/
theorem first_at (c : Dev nD) (t : Fin cfg0.N) (h0 : t.val % 4 = 0) :
    (outsAt0 m c t.val t.isLt).2 = k0_pay2 (F := Ideal) (k0_pay1 (F := Ideal)) (iblk m c 0 t) (iblk m c 1 t) := by
  have h1 : ¬ t.val % 4 = 3 := by omega
  rw [outsAt0_A m c t h0 h1]
  dsimp only
  exact Pieces.acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun hh => h1 ((hcond0_1 t).mp hh)) (iblk m c 0 t) (iblk m c 1 t) (iblk m c 2 t)

/-- At every other point it is the step applied to what the point before left. -/
theorem later_at (c : Dev nD) (t : Fin cfg0.N) (h0 : ¬ t.val % 4 = 0) :
    (outsAt0 m c t.val t.isLt).2
      = k0_pay2 (F := Ideal) (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    generalize (outsAt0 m c (t.val - 1) (Nat.lt_of_le_of_lt (Nat.sub_le _ _) t.isLt)).2 = prev
    exact Pieces.acc_last (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (iblk m c 0 t) (iblk m c 1 t) (iblk m c 2 t) prev
  · rw [outsAt0_B m c t h0 h1]
    dsimp only
    generalize (outsAt0 m c (t.val - 1) (Nat.lt_of_le_of_lt (Nat.sub_le _ _) t.isLt)).2 = prev
    exact Pieces.acc_middle (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) (fun hh => h1 ((hcond0_1 t).mp hh)) (iblk m c 0 t) (iblk m c 1 t) (iblk m c 2 t) prev

theorem first (c : Dev nD) : ∀ (n : Nat) (h : n < cfg0.N), n % 4 = 0 → accF m c n h = firstV m c n h :=
  fun n h h0 => first_at m c ⟨n, h⟩ h0

theorem later (c : Dev nD) : ∀ (n : Nat) (h : n + 1 < cfg0.N), ¬(n + 1) % 4 = 0 →
    accF m c (n + 1) h = stepV m c (n + 1) h (accF m c n (Nat.lt_of_succ_lt h)) :=
  fun n h hne => later_at m c ⟨n + 1, h⟩ hne

/-- THE FOLD: after point `t` the accumulator holds the contributions of its run's points up to `t`. -/
theorem acc_eq (c : Dev nD) (t : Nat) (ht : t < cfg0.N) (i : S1024x1024.Idx) :
    accF m c t ht i = ∑ s ∈ Finset.range (t % 4 + 1), term m c (4 * (t / 4) + s) i := by
  have hN : cfg0.N = 128 := N_0
  have h' : 4 * (t / 4) + t % 4 < cfg0.N := by omega
  have ha : ∀ (h : 4 * (t / 4) < cfg0.N) (i : S1024x1024.Idx),
      firstV m c (4 * (t / 4)) h i = k0_pay1 (F := Ideal) i + term m c (4 * (t / 4)) i :=
    fun h i => step_at m c ⟨4 * (t / 4), h⟩ (k0_pay1 (F := Ideal)) i
  have hg : ∀ (n : Nat) (h : n < cfg0.N) (acc : S1024x1024.Idx → EReal) (i : S1024x1024.Idx),
      4 * (t / 4) < n → n ≤ 4 * (t / 4) + 3 → stepV m c n h acc i = acc i + term m c n i :=
    fun n h acc i _ _ => step_at m c ⟨n, h⟩ acc i
  rw [eq_accAt_of_mod (accF m c) 4 (firstV m c) (stepV m c) (first m c) (later m c) (by decide) t ht h',
    accAt_add_apply (firstV m c) (stepV m c) (k0_pay1 (F := Ideal)) (term m c) (4 * (t / 4)) 3 ha hg (t % 4) (by omega) h' i,
    Payload.reset_apply, zero_add]

/-- At a run's last point the output's staging buffer holds the fresh accumulator through the epilogue. -/
theorem out_at (c : Dev nD) (t : Fin cfg0.N) (h0 : ¬ t.val % 4 = 0) (h3 : t.val % 4 = 3) :
    (outsAt0 m c t.val t.isLt).1 = k0_pay3 (F := Ideal) (outsAt0 m c t.val t.isLt).2 (iblk m c 2 t) := by
  rw [outsAt0_C m c t h0 h3]
  dsimp only
  generalize (outsAt0 m c (t.val - 1) (Nat.lt_of_le_of_lt (Nat.sub_le _ _) t.isLt)).2 = prev
  rw [Pieces.acc_last (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h3) (iblk m c 0 t) (iblk m c 1 t) (iblk m c 2 t) prev]
  exact Pieces.out_last (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h3) (iblk m c 0 t) (iblk m c 1 t) (iblk m c 2 t) prev

/-- THE BLOCK A RUN'S LAST POINT LEAVES in the output's staging buffer: entry `j` is the flattened layer's entry at
    the block's row tile and column tile. -/
theorem out_eq (c : Dev nD) (t : Fin cfg0.N) (h3 : t.val % 4 = 3) (j : S1024x1024.Idx) :
    (outsAt0 m c t.val t.isLt).1 j
      = rowsDot (actArr m c) (wgtArr m c) (sclArr m c)
          (ix2 (⟨1024 * (t.val / 16) + (j 0).val, by have := lt128 t; have hj : (j 0).val < 1024 := (j 0).isLt; omega⟩ : Fin 8192)
            (⟨1024 * ((t.val / 4) % 4) + (j 1).val, by have hj : (j 1).val < 1024 := (j 1).isLt; omega⟩ : Fin 4096)) := by
  have hN := lt128 t
  have h0 : ¬ t.val % 4 = 0 := by omega
  obtain ⟨p, q, rfl⟩ : ∃ (p q : Fin 1024), j = ix2 p q := ⟨j 0, j 1, eq_ix2 j⟩
  rw [out_at m c t h0 h3]
  refine (Payload.scale_apply (outsAt0 m c t.val t.isLt).2 (iblk m c 2 t) p q).trans ?_
  rw [scl_apply m c t p]
  unfold rowsDot
  refine congrArg₂ (· * ·) ?_ rfl
  show accF m c t.val t.isLt (ix2 p q) = ∑ k ∈ Finset.range (1024 * 4), _
  rw [acc_eq m c t.val t.isLt (ix2 p q), show t.val % 4 + 1 = 4 from by omega,
    ← sum_blocks (fun k => at2 (actArr m c) (1024 * (t.val / 16) + p.val) k * at2 (wgtArr m c) (1024 * ((t.val / 4) % 4) + q.val) k) 1024 4]
  refine Finset.sum_congr rfl fun s hs => ?_
  have hs4 : s < 4 := Finset.mem_range.mp hs
  unfold term
  refine Finset.sum_congr rfl fun l _ => ?_
  have e1 : (4 * (t.val / 4) + s) / 16 = t.val / 16 := by omega
  have e2 : (4 * (t.val / 4) + s) % 4 = s := by omega
  have e3 : ((4 * (t.val / 4) + s) / 4) % 4 = (t.val / 4) % 4 := by omega
  rw [e1, e2, e3]

end Cert.KernelIdeal.Accum

end
-- ==== Proof.Final.lean ====
/-
  From blocks to the whole result.

  The output array of the region is 8192 × 4096, cut into 8 × 4 blocks of 1024 × 1024; block (a, b) is written back
  once, by the last point of its contraction run, and holds the flattened layer's entries of that tile
  (`Accum.out_eq`). Every entry (r, o) lies in the block (r / 1024, o / 1024), whose writing point is
  16 (r / 1024) + 4 (o / 1024) + 3: so the array ends holding the flattened layer. The program then only reshapes it to
  (4, 2048, 4096).
-/
import proofs.«130098_j35416300323327_1_alg».proof.Proof.Accum

set_option maxRecDepth 16384

noncomputable section

open Idealize.ShloMosaic Idealize.ShloMosaic.TcCoe Idealize.SL.Sem Idealize.ShloMosaic.ValueIdx

namespace Cert.KernelIdeal.Final

open Cert.KernelIdeal Cert.KernelIdeal.Gen Cert.QuantLinear Cert.KernelIdeal.Blocks

variable (m : (ℓ : Loc nD τ sig) → Buf (Elt Ideal) ℓ) (ρ : Dev nD → PrngReg)

/-- The flattened layer of the arrays the region finds, as contents of the region's output array. -/
abbrev flat (c : Dev nD) : Buf (Elt Ideal) ((c.tc : Thread nD τ).loc main_v32) :=
  rowsDot (actArr m c) (wgtArr m c) (sclArr m c)

/-- WHAT A WRITING POINT WRITES BACK is its block of the flattened layer. -/
theorem flushed_eq (c : Dev nD) (t : Fin cfg0.N) (hf : (cfg0.win 3).flush t = true) :
    (dats m 0 c).flushed 3 t = ((cfg0.win 3).blk t).view.read (Elt Ideal) (flat m c) := by
  have h3 : t.val % 4 = 3 := (flush0_3 t).mp hf
  have hN := lt128 t
  have hi := idx_out t
  show (cfg0.win 3).cut (grid0.coords t) ((dats m 0 c).after 3 t) = _
  rw [after0_3]
  funext j
  rw [View.read_apply]
  refine (Accum.out_eq m c t h3 j).trans ?_
  refine congrArg (rowsDot (actArr m c) (wgtArr m c) (sclArr m c)) (funext fun a => Fin.ext ?_)
  match a with
  | ⟨0, _⟩ => show 1024 * (t.val / 16) + (j 0).val = win0_3.index t 0 * 1024 + 1 * (j 0).val; rw [hi.1]; omega
  | ⟨1, _⟩ => show 1024 * ((t.val / 4) % 4) + (j 1).val = win0_3.index t 1 * 1024 + 1 * (j 1).val; rw [hi.2]; omega

/-- An entry is in point `t`'s block iff each coordinate is in the block's range on its axis. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v32).slice (win0_3.rect t)).set ↔ _
  rw [View.set_slice_whole, Rect.mem_set_unit]
  exact Iff.rfl

/-- Every entry is in the block of some writing point: the last point of the run of its row tile and column tile. -/
theorem cover (i : S8192x4096.Idx) : ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 128 := N_0
  let t : Fin cfg0.N := ⟨16 * ((i 0).val / 1024) + 4 * ((i 1).val / 1024) + 3, by omega⟩
  have ht : t.val = 16 * ((i 0).val / 1024) + 4 * ((i 1).val / 1024) + 3 := rfl
  have hi := idx_out t
  refine ⟨t, (flush0_3 t).mpr (by omega), ?_⟩
  rw [mem_blk]
  intro a
  match a with
  | ⟨0, _⟩ => show win0_3.index t 0 * 1024 ≤ (i 0).val ∧ (i 0).val < win0_3.index t 0 * 1024 + 1024; rw [hi.1]; omega
  | ⟨1, _⟩ => show win0_3.index t 1 * 1024 ≤ (i 1).val ∧ (i 1).val < win0_3.index t 1 * 1024 + 1024; rw [hi.2]; omega

/-- THE REGION'S OUTPUT ARRAY after the run is the flattened layer. -/
theorem final (c : Dev nD) : (dats m 0 c).arrAt 3 cfg0.N = flat m c :=
  (dats m 0 c).arrAt_eq_of_cover 3 (flat m c) (flushed_eq m c) cover

/-- The program's result: the reshape of the region's output array. -/
theorem tail_eq (c : Dev nD) :
    Pipeline.afterTail₀ cfgs (dats m) 0 (V0 m) [hostOps1] c main_v33
      = shapeCast S4x2048x4096 (flat m c) shapeCasts_S8192x4096_S4x2048x4096 := by
  unfold Pipeline.afterTail₀
  show StableHlo.after hostOps1 _ (Proc.devRef .tc main_v33) = _
  after_results
  rw [Pipeline.withArrays_arr spec0 launch0.win.arr_inj c _ _ 3, final m c]
  rfl

/-- THE KERNEL'S RUN, READ: every weakly fair execution ends with the result at the reshaped flattened layer of the
    arrays the region found, and the arguments as launched. -/
theorem run : θ_run defs (onTc (τ := τ) (main (F := Ideal))) ⟨m, fun _ => 0, ρ⟩ fun r => ∀ c : Dev nD,
      r.2.mem ((c.tc : Thread nD τ).loc main_v33) = shapeCast S4x2048x4096 (flat m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v33 (Pipeline.mem_restRefs_of main_v33 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Final

end
-- ==== Proof.RefSide.lean ====
/-
  The reference's result, read one operation at a time, is the three-axis layer.

  The reference contracts the quantised activations [b, s, i] with the dequantised weights [o, i] over `i` and
  multiplies by the token scale broadcast along `o`. Its last three stages read at an index are exactly that:
  a sum over the contraction index of products, times the scale at (b, s, 0).
-/
import proofs.«130098_j35416300323327_1_alg».proof.Proof.Gen.ReferenceIdeal.Read
import proofs.«130098_j35416300323327_1_alg».proof.Proof.Spec

noncomputable section

open Idealize.ShloMosaic Idealize.ShloMosaic.ValueIdx

namespace Cert.RefSide

open Cert.ReferenceIdeal Cert.ReferenceIdeal.Read Cert.QuantLinear

/-- The product's left operand is read at (b, s, k), its right operand at (o, k), the scale at (b, s, 0). -/
theorem lidx_eq (i : S4x2048x4096.Idx) (k : Fin 4096) :
    lidx_main_v28 i k = ix3 (⟨(i 0).val, (i 0).isLt⟩ : Fin 4) (⟨(i 1).val, (i 1).isLt⟩ : Fin 2048) k :=
  funext fun a => Fin.ext (by match a with | ⟨0, _⟩ => rfl | ⟨1, _⟩ => rfl | ⟨2, _⟩ => rfl)
theorem ridx_eq (i : S4x2048x4096.Idx) (k : Fin 4096) :
    ridx_main_v28 i k = ix2 (⟨(i 2).val, (i 2).isLt⟩ : Fin 4096) k :=
  funext fun a => Fin.ext (by match a with | ⟨0, _⟩ => rfl | ⟨1, _⟩ => rfl)
theorem sidx_eq (i : S4x2048x4096.Idx) :
    idx_main_v29 i = ix3 (⟨(i 0).val, (i 0).isLt⟩ : Fin 4) (⟨(i 1).val, (i 1).isLt⟩ : Fin 2048) (0 : Fin 1) :=
  funext fun a => Fin.ext (by match a with | ⟨0, _⟩ => rfl | ⟨1, _⟩ => rfl | ⟨2, _⟩ => rfl)

/-- The reference's last stage is the layer of its quantised activations, dequantised weights and token scales. -/
theorem result_eq (x0 : (⟨S4x2048x4096, .f32⟩ : BufTy).Contents (Elt Ideal)) (x1 : (⟨S4096x4096, .i32⟩ : BufTy).Contents (Elt Ideal))
    (x2 x3 : (⟨S4096x32, .i32⟩ : BufTy).Contents (Elt Ideal)) (x4 x5 : (⟨S4096, .f32⟩ : BufTy).Contents (Elt Ideal)) :
    val_main_v30 (F := Ideal) x0 x1 x2 x3 x4 x5
      = layer (val_main_v27 (F := Ideal) x0) (val_main_v16 (F := Ideal) x1 x2 x3 x4 x5) (val_main_v21 (F := Ideal) x0) := by
  funext i
  rw [val_main_v30_apply, val_main_v28_apply, val_main_v29_apply]
  unfold layer
  simp only [lidx_eq, ridx_eq, sidx_eq]
  rfl

end Cert.RefSide

end
-- ==== Proof.Bridge.lean ====
/-
  The kernel's result is the layer of the SAME three quantities the reference forms.

  Both programs begin with the same host computation from the arguments: the dequantised weights `W[o, i]`, the token
  scales `sc[b, s, 0]` and the quantised, clipped activations `Q[b, s, i]`. The kernel's program then flattens the
  token axes (row `2048 b + s`), changes the float format of `Q` and `W` (the identity on exact values) and hands the
  three arrays to the region. So the arrays the region finds are those three quantities re-laid, and the reshaped
  flattened layer of them is the three-axis layer of `Q`, `W`, `sc` — entry by entry, through the row-major
  correspondence (b, s) ↔ 2048 b + s. The shared host computation is never opened: it appears on both sides as the
  same function of the arguments.
-/
import proofs.«130098_j35416300323327_1_alg».proof.Proof.Final
import proofs.«130098_j35416300323327_1_alg».proof.Proof.RefSide

set_option maxRecDepth 16384

noncomputable section

open Idealize.ShloMosaic Idealize.ShloMosaic.TcCoe Idealize.SL.Sem Idealize.ShloMosaic.ValueIdx

namespace Cert.Bridge

open Cert.KernelIdeal Cert.KernelIdeal.Gen Cert.QuantLinear Cert.KernelIdeal.Blocks

variable (m : (ℓ : Loc nD τ sig) → Buf (Elt Ideal) ℓ)

/-- The quantised activations, the dequantised weights and the token scales, as functions of the arguments. -/
abbrev Q (c : Dev nD) : (⟨3, ![4, 2048, 4096]⟩ : Shape).Idx → EReal :=
  Cert.ReferenceIdeal.Read.val_main_v27 (F := Ideal) (m ((c.tc : Thread nD τ).loc main_arg0))
abbrev Wd (c : Dev nD) : (⟨2, ![4096, 4096]⟩ : Shape).Idx → EReal :=
  Cert.ReferenceIdeal.Read.val_main_v16 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
abbrev Sc (c : Dev nD) : (⟨3, ![4, 2048, 1]⟩ : Shape).Idx → EReal :=
  Cert.ReferenceIdeal.Read.val_main_v21 (F := Ideal) (m ((c.tc : Thread nD τ).loc main_arg0))

set_option maxHeartbeats 2000000 in
/-- The activations the region finds: `Q` flattened to 8192 rows (the format change is the identity). -/
theorem act_eq (c : Dev nD) :
    actArr m c = truncf (F := Ideal) .bf16 (shapeCast S8192x4096 (Q m c) shapeCasts_S4x2048x4096_S8192x4096) bitsLt_bf16_f32 := by
  show V m c main_v29 = _
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp <;> rfl

set_option maxHeartbeats 2000000 in
/-- The weights the region finds: `W` (the format change is the identity). -/
theorem wgt_eq (c : Dev nD) : wgtArr m c = truncf (F := Ideal) .bf16 (Wd m c) bitsLt_bf16_f32 := by
  show V m c main_v30 = _
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp <;> rfl

/-- The scales the region finds: `sc` flattened to 8192 rows. -/
theorem scl_eq (c : Dev nD) : sclArr m c = shapeCast S8192x1 (Sc m c) shapeCasts_S4x2048x1_S8192x1 := by
  show V m c main_v31 = _
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- THE BRIDGE: the kernel's result is the three-axis layer of `Q`, `W`, `sc`. -/
theorem result_eq (c : Dev nD) :
    shapeCast S4x2048x4096 (Final.flat m c) shapeCasts_S8192x4096_S4x2048x4096 = layer (Q m c) (Wd m c) (Sc m c) := by
  funext i
  obtain ⟨b, s, o, rfl⟩ : ∃ (b : Fin 4) (s : Fin 2048) (o : Fin 4096), i = ix3 b s o := ⟨i 0, i 1, i 2, eq_ix3 i⟩
  have hb := b.isLt
  have hs := s.isLt
  have ho := o.isLt
  refine (shapeCast_apply (Final.flat m c) shapeCasts_S8192x4096_S4x2048x4096 (ix3 b s o)
    (ix2 (⟨2048 * b.val + s.val, by omega⟩ : Fin 8192) o) ?_).trans ?_
  · show ((⟨2, ![8192, 4096]⟩ : Shape).rowMajor (ix2 (⟨2048 * b.val + s.val, by omega⟩ : Fin 8192) o)).val
        = ((⟨3, ![4, 2048, 4096]⟩ : Shape).rowMajor (ix3 b s o)).val
    rw [Shape.rowMajor_val_two, Shape.rowMajor_val_three]
    show (2048 * b.val + s.val) * 4096 + o.val = (b.val * 2048 + s.val) * 4096 + o.val
    omega
  show rowsDot (actArr m c) (wgtArr m c) (sclArr m c) _ = _
  rw [wgt_eq m c]
  refine rowsDot_eq_layer (actArr m c) (Wd m c) (sclArr m c) (Q m c) (Sc m c) b s o
    (⟨2048 * b.val + s.val, by omega⟩ : Fin 8192) rfl (fun k => ?_) ?_
  · rw [act_eq m c]
    refine (shapeCast_apply (Q m c) shapeCasts_S4x2048x4096_S8192x4096
      (ix2 (⟨2048 * b.val + s.val, by omega⟩ : Fin 8192) k) (ix3 b s k) ?_)
    rw [Shape.rowMajor_val_two, Shape.rowMajor_val_three]
    show (b.val * 2048 + s.val) * 4096 + k.val = (2048 * b.val + s.val) * 4096 + k.val
    omega
  · rw [scl_eq m c]
    refine (shapeCast_apply (Sc m c) shapeCasts_S4x2048x1_S8192x1
      (ix2 (⟨2048 * b.val + s.val, by omega⟩ : Fin 8192) (0 : Fin 1)) (ix3 b s (0 : Fin 1)) ?_)
    rw [Shape.rowMajor_val_two, Shape.rowMajor_val_three]
    show (b.val * 2048 + s.val) * 1 + (0 : Fin 1).val = (2048 * b.val + s.val) * 1 + (0 : Fin 1).val
    omega

end Cert.Bridge

end
-- ==== Proof.lean ====
/-
  A token-quantised linear layer: a tiled kernel against its einsum reference, over the extended reals.

  Both programs compute, from the same arguments and by the same host operations, the dequantised weights
  `W[o, i]`, the token scales `sc[b, s, 0]` and the quantised, clipped activations `Q[b, s, i]`. They differ only in how
  the layer  out[b, s, o] = (∑ i, Q[b, s, i] * W[o, i]) * sc[b, s, 0]  is then evaluated:

    * the reference contracts over all 4096 features at once and multiplies by the broadcast scale;
    * the kernel flattens the token axes, cuts the product into 1024 × 1024 tiles, and for each output tile walks the
      four 1024-wide slices of the feature axis, adding each slice's partial products into an accumulator that it
      zeroes at the first slice; after the last slice it multiplies by the rows' scales and writes the tile back;
      the result is reshaped to (4, 2048, 4096).

  Over the extended reals a change of float format is the identity and `0 + x = x`, so the kernel's tile entry is the
  sum of four partial sums; a sum over 4096 consecutive indices is the sum of the sums over its four stretches of
  1024, because addition of extended reals is commutative and associative. No distributivity and no cancellation is
  used, so the finiteness of the inputs plays no part. The idealisation rewrote nothing, so the kernel is its own
  idealisation.

  Modules: Spec (the layer, and sums by stretches) · Payload (the body's arithmetic at an entry) · Pieces (what a run of
  the body leaves) · Blocks (a tile's entry in the array) · Accum (the accumulator as a fold; the written tile) · Final
  (tiles to the array; the reshape; the kernel's run) · RefSide (the reference read stage by stage) · Bridge (the
  kernel's result is the layer of the reference's three quantities).
-/
import proofs.«130098_j35416300323327_1_alg».proof.Defs
import proofs.«130098_j35416300323327_1_alg».proof.Proof.Gen.Kernel
import proofs.«130098_j35416300323327_1_alg».proof.Proof.Gen.Kernel.Skeleton
import proofs.«130098_j35416300323327_1_alg».proof.Proof.Gen.Kernel.Launch
import proofs.«130098_j35416300323327_1_alg».proof.Proof.Gen.Kernel.Points
import proofs.«130098_j35416300323327_1_alg».proof.Proof.Gen.Kernel.Frame
import proofs.«130098_j35416300323327_1_alg».proof.Proof.Gen.KernelIdeal
import proofs.«130098_j35416300323327_1_alg».proof.Proof.Gen.KernelIdeal.Skeleton
import proofs.«130098_j35416300323327_1_alg».proof.Proof.Gen.KernelIdeal.Launch
import proofs.«130098_j35416300323327_1_alg».proof.Proof.Gen.KernelIdeal.Points
import proofs.«130098_j35416300323327_1_alg».proof.Proof.Gen.KernelIdeal.Frame
import proofs.«130098_j35416300323327_1_alg».proof.Proof.Gen.ReferenceIdeal
import proofs.«130098_j35416300323327_1_alg».proof.Proof.Gen.ReferenceIdeal.Run
import proofs.«130098_j35416300323327_1_alg».proof.Proof.Gen.ReferenceIdeal.Read
import proofs.«130098_j35416300323327_1_alg».proof.Proof.Gen.Pre_finite_inputs
import proofs.«130098_j35416300323327_1_alg».proof.Proof.Bridge
import Idealize.ShloMosaic.Adequacy
import Idealize.ShloMosaic.Init

noncomputable section

namespace Cert.Proof

open Idealize.ShloMosaic Idealize.SL.Sem

/-- Each kernel program runs to the end and leaves its arguments as launched. -/
theorem frame_k : Cert.frame_Kernel := fun m ρ _ => Cert.Kernel.Gen.frame m ρ
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From arguments that agree, both programs end with the layer of `Q`, `W`, `sc`: the kernel by the fold over the
    feature slices and the tiles' cover, the reference stage by stage. -/
theorem algebraic : Cert.algebraic_KernelIdeal_ReferenceIdeal := by
  intro m ρ m' ρ' _ hagree
  refine ⟨fun c => Cert.QuantLinear.layer (Cert.Bridge.Q m c) (Cert.Bridge.Wd m c) (Cert.Bridge.Sc m c), ?_, ?_⟩
  · exact (θ_run Cert.KernelIdeal.defs _ _).mono
      (fun _ h c => ⟨(h c).1.trans (Cert.Bridge.result_eq m c), (h c).2⟩) (Cert.KernelIdeal.Final.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v30_eq, Cert.RefSide.result_eq, (hagree c).1, (hagree c).2.1, (hagree c).2.2.1,
      (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
